-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1 : Shape := ⟨2, ![32768, 1]⟩
abbrev S1x512x512 : Shape := ⟨3, ![1, 512, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S1x512x512 : S_.BroadcastsInDim S1x512x512 (![] : Fin 0 → Fin S1x512x512.rank)
  reducesTo_S1x512x512_S_d0_1_2 : S1x512x512.ReducesTo [0, 1, 2] S_

variable [Facts]

def fn_part1 {F : FTy → Type} [FloatOps F] (main_v13 : IVec S_ 1) (main_v16 : IVec S1x512x512 1) : IVec S_ 1 :=
  let main_c_5 : IVec S_ 1 := constantI S_ 1 1#1
  let main_v17 : IVec S_ 1 := (fun x v => Host.reduce IntOp.andi x v reducesTo_S1x512x512_S_d0_1_2 h_S_) main_v16 main_c_5
  let main_v18 : IVec S_ 1 := andi main_v13 main_v17
  main_v18

def fn {F : FTy → Type} [FloatOps F] (main_arg0 : FVec F S32768x512 .f32) (main_arg1 : FVec F S32768x512 .f32) (main_arg2 : FVec F S32768x1 .f32) (main_arg3 : FVec F S1x512x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  let main_v14 : FVec F S1x512x512 .f32 := Host.absf main_arg3
  let main_cst_4 : FVec F S_ .f32 := constant S_ .f32 0x7F800000#32
  let main_v15 : FVec F S1x512x512 .f32 := broadcastInDim S1x512x512 ![] bcast_S_S1x512x512 main_cst_4
  let main_v16 : IVec S1x512x512 1 := cmpf .olt main_v14 main_v15
  fn_part1 (F := F) main_v13 main_v16
-- ==== Kernel.lean ====
abbrev S32768x512 : Shape := ⟨2, ![32768, 512]⟩
abbrev S32768x1 : Shape := ⟨2, ![32768, 1]⟩
abbrev S1x512x512 : Shape := ⟨3, ![1, 512, 512]⟩
abbrev S512x512 : Shape := ⟨2, ![512, 512]⟩
abbrev S32768x513 : Shape := ⟨2, ![32768, 513]⟩
abbrev S1024x512 : Shape := ⟨2, ![1024, 512]⟩
abbrev S1024x1 : Shape := ⟨2, ![1024, 1]⟩
abbrev S1024x513 : Shape := ⟨2, ![1024, 513]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1, .f32⟩
  | .hbm, ⟨3, _⟩ => ⟨S1x512x512, .f32⟩
  | .hbm, ⟨4, _⟩ => ⟨S512x512, .f32⟩
  | .hbm, ⟨5, _⟩ => ⟨S512x512, .bf16⟩
  | .hbm, ⟨6, _⟩ => ⟨S32768x513, .f32⟩
  | .hbm, ⟨7, _⟩ => ⟨S32768x512, .f32⟩
  | .hbm, ⟨8, _⟩ => ⟨S32768x1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S512x512, .bf16⟩
  | .local _ .vmem, ⟨7, _⟩ => ⟨S1024x513, .f32⟩
  | .local _ .vmem, ⟨8, _⟩ => ⟨S1024x513, .f32⟩
  | .local _ .vmem, ⟨9, _⟩ => ⟨S1024x512, .f32⟩
  | .local _ .vmem, ⟨10, _⟩ => ⟨S1024x512, .f32⟩
  | .local _ .vmem, ⟨11, _⟩ => ⟨S1024x1, .f32⟩
  | .local _ .vmem, ⟨12, _⟩ => ⟨S1024x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x513 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x512x512_S512x512 : S1x512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  broadcasts_S1024x1_S1024x512 : S1024x1.Broadcasts S1024x512
  inb_S1024x513_S1024x512_0_0 : ∀ a, (![0, 0] : Fin 2 → Nat) a + S1024x512.size a ≤ S1024x513.size a
  inb_S1024x513_S1024x1_0_512 : ∀ a, (![0, 512] : Fin 2 → Nat) a + S1024x1.size a ≤ S1024x513.size a
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x513.size a ≤ S32768x513.size a
  hwx0_4 : ∀ i : grid0.Coords, EltTy.bits .f32 = 32 ∨ (Rect.block (s := S32768x513) S1024x513.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S32768x512.size a
  hwx0_5 : ∀ i : grid0.Coords, EltTy.bits .f32 = 32 ∨ (Rect.block (s := S32768x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S32768x1.size a
  hwx0_6 : ∀ i : grid0.Coords, EltTy.bits .f32 = 32 ∨ (Rect.block (s := S32768x1) S1024x1.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x513.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1 : Shape := ⟨2, ![32768, 1]⟩
abbrev S1x512x512 : Shape := ⟨3, ![1, 512, 512]⟩
abbrev S1x32768x512 : Shape := ⟨3, ![1, 32768, 512]⟩
abbrev S1x32768x1x512 : Shape := ⟨4, ![1, 32768, 1, 512]⟩
abbrev S1x32768x1x1 : Shape := ⟨4, ![1, 32768, 1, 1]⟩
abbrev S_ : Shape := ⟨0, ![]⟩
abbrev S1x32768x1 : Shape := ⟨3, ![1, 32768, 1]⟩
abbrev S32768x513 : Shape := ⟨2, ![32768, 513]⟩

abbrev nBuf : Space → Nat
  | .hbm => 28
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1, .f32⟩
  | .hbm, ⟨3, _⟩ => ⟨S1x512x512, .f32⟩
  | .hbm, ⟨4, _⟩ => ⟨S1x32768x512, .f32⟩
  | .hbm, ⟨5, _⟩ => ⟨S1x32768x512, .f32⟩
  | .hbm, ⟨6, _⟩ => ⟨S1x32768x512, .f32⟩
  | .hbm, ⟨7, _⟩ => ⟨S1x32768x1x512, .f32⟩
  | .hbm, ⟨8, _⟩ => ⟨S1x32768x1x512, .f32⟩
  | .hbm, ⟨9, _⟩ => ⟨S1x32768x1x1, .f32⟩
  | .hbm, ⟨10, _⟩ => ⟨S_, .f32⟩
  | .hbm, ⟨11, _⟩ => ⟨S1x32768x1x512, .f32⟩
  | .hbm, ⟨12, _⟩ => ⟨S1x32768x1x512, .f32⟩
  | .hbm, ⟨13, _⟩ => ⟨S_, .f32⟩
  | .hbm, ⟨14, _⟩ => ⟨S1x32768x1x512, .f32⟩
  | .hbm, ⟨15, _⟩ => ⟨S1x32768x1x512, .f32⟩
  | .hbm, ⟨16, _⟩ => ⟨S1x32768x1x512, .f32⟩
  | .hbm, ⟨17, _⟩ => ⟨S_, .f32⟩
  | .hbm, ⟨18, _⟩ => ⟨S1x32768x1, .f32⟩
  | .hbm, ⟨19, _⟩ => ⟨S1x32768x1x1, .f32⟩
  | .hbm, ⟨20, _⟩ => ⟨S1x32768x1x1, .f32⟩
  | .hbm, ⟨21, _⟩ => ⟨S1x32768x1x1, .f32⟩
  | .hbm, ⟨22, _⟩ => ⟨S1x32768x1x512, .f32⟩
  | .hbm, ⟨23, _⟩ => ⟨S1x32768x1x512, .f32⟩
  | .hbm, ⟨24, _⟩ => ⟨S32768x512, .f32⟩
  | .hbm, ⟨25, _⟩ => ⟨S32768x1, .f32⟩
  | .hbm, ⟨26, _⟩ => ⟨S32768x512, .f32⟩
  | .hbm, ⟨27, _⟩ => ⟨S32768x513, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  shapeCasts_S32768x512_S1x32768x512 : S32768x512.ShapeCasts S1x32768x512
  shapeCasts_S1x32768x512_S1x32768x1x512 : S1x32768x512.ShapeCasts S1x32768x1x512
  shapeCasts_S32768x1_S1x32768x1x1 : S32768x1.ShapeCasts S1x32768x1x1
  bcast_S_S1x32768x1x512 : S_.BroadcastsInDim S1x32768x1x512 (![] : Fin 0 → Fin S1x32768x1x512.rank)
  reducesTo_S1x32768x1x512_S1x32768x1_d3 : S1x32768x1x512.ReducesTo [3] S1x32768x1
  h_S_ : 0 < S_.numel
  bcast_S1x32768x1_S1x32768x1x1_0_1_2 : S1x32768x1.BroadcastsInDim S1x32768x1x1 (![0, 1, 2] : Fin 3 → Fin S1x32768x1x1.rank)
  bcast_S1x32768x1x1_S1x32768x1x512_0_1_2_3 : S1x32768x1x1.BroadcastsInDim S1x32768x1x512 (![0, 1, 2, 3] : Fin 4 → Fin S1x32768x1x512.rank)
  shapeCasts_S1x32768x1x512_S32768x512 : S1x32768x1x512.ShapeCasts S32768x512
  shapeCasts_S1x32768x1x1_S32768x1 : S1x32768x1x1.ShapeCasts S32768x1
  concatenates_S32768x512_S32768x1_S32768x513_d1 : Shape.Concatenates [S32768x512, S32768x1] S32768x513 1
  dot_S1x32768x512_S1x512x512_S1x32768x512_2_1_1_2_0_0_wf : DotDims.WF S1x32768x512 S1x512x512 S1x32768x512 [2] [1] [1] [2] [0] [0]

variable [Facts₀]

def dot_S1x32768x512_S1x512x512_S1x32768x512_2_1_1_2_0_0 : DotDims S1x32768x512 S1x512x512 S1x32768x512 where
  lhsContracting := [2]
  rhsContracting := [1]
  lhsNonContracting := [1]
  rhsNonContracting := [2]
  lhsBatch := [0]
  rhsBatch := [0]
  wf := dot_S1x32768x512_S1x512x512_S1x32768x512_2_1_1_2_0_0_wf

class Facts : Prop extends Facts₀ where

variable [Facts]
-- ==== Proof.Spec.lean ====
/-
  One step of the scaled forward recursion of a hidden Markov model with 512 states, stated row by row over the
  extended reals.

  A row carries the previous scaled state weights `s`, the emission likelihoods `e` of the new observation and the
  running log-likelihood `l`; `A` is the transition matrix. The step predicts `s · A`, clamps the prediction and
  the emission likelihoods from below at a small positive floor, multiplies them state by state, and normalises by
  the row's total:

      predict q = Σ_k s k · A k q
      weight  q = max (e q) floor · max (predict q) floor
      total     = Σ_q weight q
      scaled  q = weight q / total
      loglik    = l + log total

  and the fused row is `log (scaled q)` in its first 512 lanes and `loglik` in lane 512. Every quantity of a row
  depends on that row of `s`, `e`, `l` and on `A` only: this is what lets a block of rows be computed by itself.
  The whole-array results are these row functions applied to each row of the argument arrays.
-/
import Idealize.ShloMosaic.PureOps.Ideal
import Idealize.ShloMosaic.Lib.ValueIdx

noncomputable section

namespace Cert.Hmm

open Idealize.ShloMosaic Idealize.ShloMosaic.ValueIdx

/-! ## One row -/

/-- The floor both factors are clamped at: the binary32 number nearest to 1e-16 (one word, never evaluated). -/
def floor : EReal := Ideal.ofBits .f32 0x24E69595#32

/-- The predicted weight of state `q`: the row of previous weights times column `q` of the transition matrix. -/
def predict (s : Fin 512 → EReal) (A : Fin 512 → Fin 512 → EReal) (q : Fin 512) : EReal :=
  ∑ k : Fin 512, s k * A k q

/-- The unnormalised new weight of state `q`: clamped emission likelihood times clamped prediction. -/
def weight (e s : Fin 512 → EReal) (A : Fin 512 → Fin 512 → EReal) (q : Fin 512) : EReal :=
  max (e q) floor * max (predict s A q) floor

/-- The row's scaling factor: the sum of its unnormalised weights. -/
def total (e s : Fin 512 → EReal) (A : Fin 512 → Fin 512 → EReal) : EReal :=
  ∑ q : Fin 512, weight e s A q

/-- The new scaled weight of state `q`. -/
def scaled (e s : Fin 512 → EReal) (A : Fin 512 → Fin 512 → EReal) (q : Fin 512) : EReal :=
  Ideal.div (weight e s A q) (total e s A)

/-- The new running log-likelihood. -/
def loglik (l : EReal) (e s : Fin 512 → EReal) (A : Fin 512 → Fin 512 → EReal) : EReal :=
  l + Ideal.log (total e s A)

/-- The fused row: the logarithms of the scaled weights, then the log-likelihood in the last lane. -/
def fusedRow (l : EReal) (e s : Fin 512 → EReal) (A : Fin 512 → Fin 512 → EReal) (j : Fin 513) : EReal :=
  if h : j.val < 512 then Ideal.log (scaled e s A ⟨j.val, h⟩) else loglik l e s A

theorem fusedRow_lt (l : EReal) (e s : Fin 512 → EReal) (A : Fin 512 → Fin 512 → EReal) (j : Fin 513) (h : j.val < 512) :
    fusedRow l e s A j = Ideal.log (scaled e s A ⟨j.val, h⟩) := dif_pos h

theorem fusedRow_last (l : EReal) (e s : Fin 512 → EReal) (A : Fin 512 → Fin 512 → EReal) (j : Fin 513) (h : ¬ j.val < 512) :
    fusedRow l e s A j = loglik l e s A := dif_neg h

/-! ## Rows of arrays -/

/-- Row `r` of a matrix with 512 lanes. -/
abbrev rowOf {a : ℕ} (X : (⟨2, ![a, 512]⟩ : Shape).Idx → EReal) (r : Fin a) : Fin 512 → EReal := fun k => X (ix2 r k)

/-- Entry `r` of a column. -/
abbrev colAt {a : ℕ} (L : (⟨2, ![a, 1]⟩ : Shape).Idx → EReal) (r : Fin a) : EReal := L (ix2 r (0 : Fin 1))

/-- The transition matrix of the one model held as `[1, 512, 512]`. -/
abbrev matOf (A : (⟨3, ![1, 512, 512]⟩ : Shape).Idx → EReal) : Fin 512 → Fin 512 → EReal := fun k q => A (ix3 (0 : Fin 1) k q)

/-! ## The three results, as whole arrays of `a` rows -/

/-- The new scaled weights. -/
def newWeights {a : ℕ} (E S : (⟨2, ![a, 512]⟩ : Shape).Idx → EReal) (A : Fin 512 → Fin 512 → EReal) :
    (⟨2, ![a, 512]⟩ : Shape).Idx → EReal :=
  fun i => scaled (rowOf E (i 0)) (rowOf S (i 0)) A (i 1)

/-- The new log-likelihoods, as a column. -/
def newLoglik {a : ℕ} (E S : (⟨2, ![a, 512]⟩ : Shape).Idx → EReal) (L : (⟨2, ![a, 1]⟩ : Shape).Idx → EReal)
    (A : Fin 512 → Fin 512 → EReal) : (⟨2, ![a, 1]⟩ : Shape).Idx → EReal :=
  fun i => loglik (colAt L (i 0)) (rowOf E (i 0)) (rowOf S (i 0)) A

/-- The fused output: 512 lanes of log weights and the log-likelihood in lane 512. -/
def fused {a : ℕ} (E S : (⟨2, ![a, 512]⟩ : Shape).Idx → EReal) (L : (⟨2, ![a, 1]⟩ : Shape).Idx → EReal)
    (A : Fin 512 → Fin 512 → EReal) : (⟨2, ![a, 513]⟩ : Shape).Idx → EReal :=
  fun i => fusedRow (colAt L (i 0)) (rowOf E (i 0)) (rowOf S (i 0)) A (i 1)

end Cert.Hmm

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.LibPlainMatmul.lean ====
/-
  A plain two-axis matrix product into a zero accumulator, read at an index given by coordinates: for dimension
  numbers that contract the left operand's columns with the right operand's rows, an `[m, k] · [k, n]` product whose
  accumulator is the zero splat reads, at `(r, c)`, the sum over `f` of left `(r, f)` times right `(f, c)` over the
  extended reals — the same sum the host's `dot_general` with these dimension numbers reads there.
-/
import Idealize.ShloMosaic.Lib.ValueIdx
import Idealize.ShloMosaic.PureOps.Ideal.Laws

noncomputable section

namespace Cert.PlainMatmul

open Idealize.ShloMosaic Idealize.ShloMosaic.ValueIdx

/-- For dimension numbers that contract the left operand's columns with the right operand's rows (`hl0` … `hr1`: the
    operand indices at an output index and a contraction position, read off the numbers), an `[m, k] · [k, n]`
    product into the zero accumulator reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainMatmul

end
-- ==== Proof.LibLaneOps.lean ====
/-
  Three readings at an index, over literal two-axis shapes: the sum of an [a, c] matrix along its lanes at a row; one
  column of an [a, b] array cut out as an [a, 1] slice; and the scalar at one lane of a one-row array, taken as a
  [1, 1] slice and extracted.
-/
import Idealize.ShloMosaic.Lib.ValueIdx
import Idealize.ShloMosaic.Lib.Pipeline.Value
import Idealize.ShloMosaic.PureOps.Ideal.Laws

noncomputable section

namespace Cert.Lib.LaneOps

open Idealize.ShloMosaic Idealize.ShloMosaic.ValueIdx

variable {α : Type}

/-- The sum of an `[a, c]` matrix along its lanes reads, at row `r`, the sum over `k` of the matrix at `(r, k)`. -/
theorem laneSum2_apply {a c : ℕ} (src : FVec Ideal ⟨2, ![a, c]⟩ .f32)
    (h : (⟨2, ![a, c]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin c, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- Column `j` of an `[a, b]` array, cut out as an `[a, 1]` slice, reads at `(r, 0)` the array at `(r, j)`. -/
theorem colSlice_apply {a b : ℕ} (x : (⟨2, ![a, b]⟩ : Shape).Idx → α) (j : ℕ) (hj : j < b)
    (h : (⟨2, ![a, b]⟩ : Shape).Slices ![0, j] ⟨2, ![a, 1]⟩) (r : Fin a) :
    extractStridedSlice ⟨2, ![a, 1]⟩ ![0, j] x h (ix2 r (0 : Fin 1)) = x (ix2 r (⟨j, hj⟩ : Fin b)) := by
  refine extractStridedSlice_apply ![0, j] x h (ix2 r (0 : Fin 1)) (ix2 r (⟨j, hj⟩ : Fin b)) fun ax => ?_
  match ax with
  | ⟨0, _⟩ => exact (Nat.zero_add _).symm
  | ⟨1, _⟩ => rfl

/-- The scalar at lane `j` of a one-row array, taken as a `[1, 1]` slice and then extracted. -/
theorem laneScalar_apply {b : ℕ} (x : (⟨2, ![1, b]⟩ : Shape).Idx → α) (j : ℕ) (hj : j < b)
    (h : (⟨2, ![1, b]⟩ : Shape).Slices ![0, j] ⟨2, ![1, 1]⟩) (hp : ∀ a, (![0, 0] : Fin 2 → ℕ) a < (⟨2, ![1, 1]⟩ : Shape).size a) :
    extractAt ![0, 0] (extractStridedSlice ⟨2, ![1, 1]⟩ ![0, j] x h) hp = x (ix2 (0 : Fin 1) (⟨j, hj⟩ : Fin b)) := by
  unfold extractAt
  refine extractStridedSlice_apply ![0, j] x h _ (ix2 (0 : Fin 1) (⟨j, hj⟩ : Fin b)) fun ax => ?_
  match ax with
  | ⟨0, _⟩ => rfl
  | ⟨1, _⟩ => rfl

end Cert.Lib.LaneOps

end
-- ==== Proof.Body.lean ====
/-
  The kernel body's arithmetic on one block of 1024 rows, read at an index over the extended reals.

  The body loads the block `s` of previous weights, the block `e` of emission likelihoods, the column `l` of
  log-likelihoods and the whole transition matrix `W`, and computes, row `p` by row `p`, exactly the row functions
  of the specification: the matrix product into a zero accumulator is the row's prediction, the lane sum is the
  row's total, the column kept as `[1024, 1]` and broadcast along the lanes is that total at every lane. Changes of
  float format are the identity on the extended reals.
-/
import proofs.«125899_j70145405878667_2_alg».proof.Proof.Gen.KernelIdeal.Skeleton
import proofs.«125899_j70145405878667_2_alg».proof.Proof.Spec
import proofs.«125899_j70145405878667_2_alg».proof.Proof.LibColumnCast
import proofs.«125899_j70145405878667_2_alg».proof.Proof.LibColumnBroadcast
import proofs.«125899_j70145405878667_2_alg».proof.Proof.LibPlainMatmul
import proofs.«125899_j70145405878667_2_alg».proof.Proof.LibLaneOps
import Idealize.ShloMosaic.Lib.Pipeline.Value
import Idealize.ShloMosaic.Lib.ValueIdx
import Idealize.ShloMosaic.PureOps.Ideal.Laws

noncomputable section

namespace Cert.Hmm.Body

open Cert.KernelIdeal Cert.KernelIdeal.Gen Idealize.ShloMosaic Idealize.ShloMosaic.ValueIdx

/-- The transition matrix as the body holds it: a `[512, 512]` block. -/
abbrev blockMat (W : Vec Ideal S512x512 .bf16) : Fin 512 → Fin 512 → EReal := fun k q => W (ix2 k q)

/-- The matrix product of the block of previous weights with the transition matrix, into the zero accumulator, is at
    `(p, q)` the prediction of row `p` for state `q`. -/
theorem product_apply (s : Vec Ideal S1024x512 .f32) (W : Vec Ideal S512x512 .bf16) (p : Fin 1024) (q : Fin 512) :
    (matmul dot_S1024x512_S512x512_S1024x512_1_0_0_1_n_n none (truncf .bf16 s bitsLt_bf16_f32 : FVec Ideal S1024x512 .bf16)
        (shapeCast S512x512 W shapeCasts_S512x512_S512x512 : FVec Ideal S512x512 .bf16)
        (constant S1024x512 .f32 0x00000000#32) : FVec Ideal S1024x512 .f32) (ix2 p q)
      = predict (rowOf s p) (blockMat W) q := by
  rw [shapeCast_self]
  exact Cert.PlainMatmul.matmul_zero_ix2_apply dot_S1024x512_S512x512_S1024x512_1_0_0_1_n_n rfl rfl
    (fun _ _ => rfl) (fun _ _ => rfl) (fun _ _ => rfl) (fun _ _ => rfl) none
    (truncf .bf16 s bitsLt_bf16_f32 : FVec Ideal S1024x512 .bf16) (W : FVec Ideal S512x512 .bf16) p q

/-- The product of the clamped emission likelihoods and the clamped predictions is, at `(p, q)`, row `p`'s
    unnormalised weight of state `q`. -/
theorem weight_apply (s e : Vec Ideal S1024x512 .f32) (W : Vec Ideal S512x512 .bf16) (p : Fin 1024) (q : Fin 512) :
    k0_pay1 (F := Ideal) s W e (ix2 p q) = weight (rowOf e p) (rowOf s p) (blockMat W) q := by
  unfold k0_pay1
  exact congrArg (fun z : EReal => max (e (ix2 p q)) (Ideal.ofBits .f32 0x24E69595#32) * max z (Ideal.ofBits .f32 0x24E69595#32))
    (product_apply s W p q)

/-- The lane sum kept as a column is, at row `p`, the row's total. -/
theorem total_apply (s e : Vec Ideal S1024x512 .f32) (W : Vec Ideal S512x512 .bf16) (p : Fin 1024) (u : Fin 1) :
    k0_pay2 (F := Ideal) s W e (ix2 p u) = total (rowOf e p) (rowOf s p) (blockMat W) := by
  unfold k0_pay2
  refine (Cert.Lib.ColumnCast.shapeCast_a_a1_apply _ shapeCasts_S1024_S1024x1 p u).trans ?_
  refine (Cert.Lib.LaneOps.laneSum2_apply (k0_pay1 (F := Ideal) s W e) reduces_S1024x512_S1024 (.inl rfl) rfl p).trans ?_
  exact Finset.sum_congr rfl fun q _ => weight_apply s e W p q

/-- The column of new log-likelihoods at row `p`. -/
theorem loglik_apply (s e : Vec Ideal S1024x512 .f32) (W : Vec Ideal S512x512 .bf16) (l : Vec Ideal S1024x1 .f32)
    (p : Fin 1024) (u : Fin 1) :
    k0_pay3 (F := Ideal) s W e l (ix2 p u) = loglik (colAt l p) (rowOf e p) (rowOf s p) (blockMat W) := by
  obtain rfl : u = 0 := Subsingleton.elim u 0
  unfold k0_pay3
  show l (ix2 p (0 : Fin 1)) + Ideal.log (k0_pay2 (F := Ideal) s W e (ix2 p (0 : Fin 1))) = _
  rw [total_apply]
  rfl

/-- The new scaled weights at `(p, q)`: the weight over the row's total, the total read at every lane of the
    broadcast column. -/
theorem scaled_apply (s e : Vec Ideal S1024x512 .f32) (W : Vec Ideal S512x512 .bf16) (p : Fin 1024) (q : Fin 512) :
    k0_pay4 (F := Ideal) s W e (ix2 p q) = scaled (rowOf e p) (rowOf s p) (blockMat W) q := by
  unfold k0_pay4
  show Ideal.div (k0_pay1 (F := Ideal) s W e (ix2 p q))
      (broadcastTo S1024x512 (k0_pay2 (F := Ideal) s W e) broadcasts_S1024x1_S1024x512 (ix2 p q)) = _
  rw [Cert.Lib.ColumnBroadcast.broadcastTo_a1_ab_apply, weight_apply, total_apply]
  rfl

/-- Their logarithms. -/
theorem logScaled_apply (s e : Vec Ideal S1024x512 .f32) (W : Vec Ideal S512x512 .bf16) (p : Fin 1024) (q : Fin 512) :
    k0_pay5 (F := Ideal) s W e (ix2 p q) = Ideal.log (scaled (rowOf e p) (rowOf s p) (blockMat W) q) := by
  unfold k0_pay5
  show Ideal.log (k0_pay4 (F := Ideal) s W e (ix2 p q)) = _
  rw [scaled_apply]

end Cert.Hmm.Body

end
-- ==== Proof.Block.lean ====
/-
  A block of rows computes the whole arrays' rows.

  Let the block `s`, `e`, `l` hold rows `r p` (`p` the row inside the block) of the arrays `S`, `E`, `L`, and let
  the block `W` hold the transition matrix `A`. Every quantity of the step depends on one row only, so what the
  body computes at block row `p` is the whole-array result at array row `r p`: the new weights, the new
  log-likelihood, and the fused row (the logarithms in lanes below 512, the log-likelihood in lane 512).
-/
import proofs.«125899_j70145405878667_2_alg».proof.Proof.Body

noncomputable section

namespace Cert.Hmm.Block

open Cert.KernelIdeal Cert.KernelIdeal.Gen Idealize.ShloMosaic Idealize.ShloMosaic.ValueIdx

variable {a : ℕ} (s e : Vec Ideal S1024x512 .f32) (W : Vec Ideal S512x512 .bf16) (l : Vec Ideal S1024x1 .f32)
  (S E : (⟨2, ![a, 512]⟩ : Shape).Idx → EReal) (L : (⟨2, ![a, 1]⟩ : Shape).Idx → EReal) (A : Fin 512 → Fin 512 → EReal)
  (r : Fin 1024 → Fin a)
  (hs : ∀ p k, s (ix2 p k) = S (ix2 (r p) k)) (he : ∀ p k, e (ix2 p k) = E (ix2 (r p) k))
  (hl : ∀ p, l (ix2 p (0 : Fin 1)) = L (ix2 (r p) (0 : Fin 1))) (hW : ∀ k q, W (ix2 k q) = A k q)

include hs in
theorem rowS (p : Fin 1024) : rowOf s p = rowOf S (r p) := funext (hs p)
include he in
theorem rowE (p : Fin 1024) : rowOf e p = rowOf E (r p) := funext (he p)
include hW in
theorem matW : Body.blockMat W = A := funext fun k => funext (hW k)

include hs he hW in
/-- The new weights of block row `p` are those of array row `r p`. -/
theorem weights_block (p : Fin 1024) (q : Fin 512) :
    k0_pay4 (F := Ideal) s W e (ix2 p q) = newWeights E S A (ix2 (r p) q) := by
  rw [Body.scaled_apply s e W p q, rowS s S r hs p, rowE e E r he p, matW W A hW]
  rfl

include hs he hl hW in
/-- The new log-likelihood of block row `p` is that of array row `r p`. -/
theorem loglik_block (p : Fin 1024) (u : Fin 1) :
    k0_pay3 (F := Ideal) s W e l (ix2 p u) = newLoglik E S L A (ix2 (r p) u) := by
  rw [Body.loglik_apply s e W l p u, rowS s S r hs p, rowE e E r he p, matW W A hW]
  show loglik (l (ix2 p (0 : Fin 1))) _ _ _ = loglik (L (ix2 (r p) (0 : Fin 1))) _ _ _
  rw [hl p]
  rfl

include hs he hW in
/-- The logarithm of the new weight at block row `p` is the fused row's lane `q < 512` at array row `r p`. -/
theorem fused_lane_block (p : Fin 1024) (q : Fin 512) :
    k0_pay5 (F := Ideal) s W e (ix2 p q) = fused E S L A (ix2 (r p) q.castSucc) := by
  rw [Body.logScaled_apply s e W p q, rowS s S r hs p, rowE e E r he p, matW W A hW]
  exact (fusedRow_lt _ _ _ _ q.castSucc q.isLt).symm

include hs he hl hW in
/-- The log-likelihood at block row `p` is the fused row's lane 512 at array row `r p`. -/
theorem fused_last_block (p : Fin 1024) :
    k0_pay3 (F := Ideal) s W e l (ix2 p (0 : Fin 1)) = fused E S L A (ix2 (r p) (Fin.last 512)) := by
  rw [loglik_block s e W l S E L A r hs he hl hW p 0]
  exact (fusedRow_last _ _ _ _ (Fin.last 512) (by show ¬ (512 < 512); omega)).symm

end Cert.Hmm.Block

end
-- ==== Proof.Pieces.lean ====
/-
  What the body leaves in each output's staging buffer, as values of the blocks it loaded.

  The body writes the block of new weights and the column of new log-likelihoods each by one store of the whole
  buffer, so those two buffers hold the stored payloads. The fused buffer `[1024, 513]` is written by two stores that
  tile it: the logarithms of the new weights through the rectangle of lanes 0 … 511, then the log-likelihood column
  through the one-lane rectangle at lane 512; an entry of the buffer is the payload of the store whose rectangle
  holds it. A load of a whole input buffer reads its contents.
-/
import proofs.«125899_j70145405878667_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.Hmm.Pieces

open Cert.KernelIdeal Cert.KernelIdeal.Gen Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- The buffer of new weights holds the one store's payload. -/
theorem weights_eq (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S512x512 .bf16) (harg4 : arg4.IsWhole) (arg5 : Memref sig .tc .vmem S1024x513 .f32) (harg5 : arg5.IsWhole) (arg6 : Memref sig .tc .vmem S1024x512 .f32) (harg6 : arg6.IsWhole) (arg7 : Memref sig .tc .vmem S1024x1 .f32) (harg7 : arg7.IsWhole)
    (x0 : Vec F S1024x512 .f32) (x1 : Vec F S1024x512 .f32) (x2 : Vec F S1024x1 .f32) (x3 : Vec F S512x512 .bf16) :
    out0_A_5 c i arg1 harg1 arg2 harg2 arg3 harg3 arg4 harg4 arg5 harg5 arg6 harg6 arg7 harg7 x0 x1 x2 x3 = k0_pay4 x0 x3 x1 := by
  unfold out0_A_5
  rw [View.read_writes_eq_canon _ _ _ (cover0_A_5 c i arg1 harg1 arg2 harg2 arg3 harg3 arg4 harg4 arg5 harg5 arg6 harg6 arg7 harg7 x0 x1 x2 x3)]
  unfold kernelRun0_A
  dsimp only
  rw [View.canon_unit_zero hz]
  simp only [View.readAt_eq_ld, harg1.read_unread, harg2.read_unread, harg3.read_unread, harg4.read_unread, View.ld_unit_zero (S := S1024x512) hz, View.ld_unit_zero (S := S512x512) hz, View.ld_unit_zero (S := S1024x1) hz]

/-- The buffer of new log-likelihoods holds the one store's payload. -/
theorem loglik_eq (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S512x512 .bf16) (harg4 : arg4.IsWhole) (arg5 : Memref sig .tc .vmem S1024x513 .f32) (harg5 : arg5.IsWhole) (arg6 : Memref sig .tc .vmem S1024x512 .f32) (harg6 : arg6.IsWhole) (arg7 : Memref sig .tc .vmem S1024x1 .f32) (harg7 : arg7.IsWhole)
    (x0 : Vec F S1024x512 .f32) (x1 : Vec F S1024x512 .f32) (x2 : Vec F S1024x1 .f32) (x3 : Vec F S512x512 .bf16) :
    out0_A_6 c i arg1 harg1 arg2 harg2 arg3 harg3 arg4 harg4 arg5 harg5 arg6 harg6 arg7 harg7 x0 x1 x2 x3 = k0_pay3 x0 x3 x1 x2 := by
  unfold out0_A_6
  rw [View.read_writes_eq_canon _ _ _ (cover0_A_6 c i arg1 harg1 arg2 harg2 arg3 harg3 arg4 harg4 arg5 harg5 arg6 harg6 arg7 harg7 x0 x1 x2 x3)]
  unfold kernelRun0_A
  dsimp only
  rw [View.canon_unit_zero hz]
  simp only [View.readAt_eq_ld, harg1.read_unread, harg2.read_unread, harg3.read_unread, harg4.read_unread, View.ld_unit_zero (S := S1024x512) hz, View.ld_unit_zero (S := S512x512) hz, View.ld_unit_zero (S := S1024x1) hz]

/-- Lane 512 of the fused buffer holds the log-likelihood column: the last store's rectangle is that lane. -/
theorem fused_last (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S512x512 .bf16) (harg4 : arg4.IsWhole) (arg5 : Memref sig .tc .vmem S1024x513 .f32) (harg5 : arg5.IsWhole) (arg6 : Memref sig .tc .vmem S1024x512 .f32) (harg6 : arg6.IsWhole) (arg7 : Memref sig .tc .vmem S1024x1 .f32) (harg7 : arg7.IsWhole)
    (x0 : Vec F S1024x512 .f32) (x1 : Vec F S1024x512 .f32) (x2 : Vec F S1024x1 .f32) (x3 : Vec F S512x512 .bf16) (p : Fin 1024) :
    out0_A_4 c i arg1 harg1 arg2 harg2 arg3 harg3 arg4 harg4 arg5 harg5 arg6 harg6 arg7 harg7 x0 x1 x2 x3 (ix2 p (Fin.last 512)) = k0_pay3 x0 x3 x1 x2 (ix2 p (0 : Fin 1)) := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  have e : (ix2 p (Fin.last 512) : S1024x513.Idx)
      = (Rect.unit (s := S1024x513) ![0, 512] S1024x1.size inb_S1024x513_S1024x1_0_512).emb (ix2 p (0 : Fin 1)) :=
    funext fun a => Fin.ext (by
      match a with
      | ⟨0, _⟩ => show p.val = 0 + 1 * p.val; omega
      | ⟨1, _⟩ => show 512 = 512 + 1 * 0; rfl)
  rw [e, View.canon_cons_emb]
  simp only [View.readAt_eq_ld, harg1.read_unread, harg2.read_unread, harg3.read_unread, harg4.read_unread, View.ld_unit_zero (S := S1024x512) hz, View.ld_unit_zero (S := S512x512) hz, View.ld_unit_zero (S := S1024x1) hz]

/-- A lane below 512 of the fused buffer holds the logarithm of the new weight there: the last store's rectangle
    does not hold it, the first store's does. -/
theorem fused_lane (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x1 .f32) (harg3 : arg3.IsWhole) (arg4 : Memref sig .tc .vmem S512x512 .bf16) (harg4 : arg4.IsWhole) (arg5 : Memref sig .tc .vmem S1024x513 .f32) (harg5 : arg5.IsWhole) (arg6 : Memref sig .tc .vmem S1024x512 .f32) (harg6 : arg6.IsWhole) (arg7 : Memref sig .tc .vmem S1024x1 .f32) (harg7 : arg7.IsWhole)
    (x0 : Vec F S1024x512 .f32) (x1 : Vec F S1024x512 .f32) (x2 : Vec F S1024x1 .f32) (x3 : Vec F S512x512 .bf16) (p : Fin 1024) (q : Fin 512) :
    out0_A_4 c i arg1 harg1 arg2 harg2 arg3 harg3 arg4 harg4 arg5 harg5 arg6 harg6 arg7 harg7 x0 x1 x2 x3 (ix2 p q.castSucc) = k0_pay5 x0 x3 x1 (ix2 p q) := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  rw [View.canon_cons_of_not_mem _ _ (by
    rw [Rect.mem_set_unit]
    intro h
    have h1 : 512 ≤ q.val := (h 1).1
    have := q.isLt
    omega)]
  have e : (ix2 p q.castSucc : S1024x513.Idx)
      = (Rect.unit (s := S1024x513) ![0, 0] S1024x512.size inb_S1024x513_S1024x512_0_0).emb (ix2 p q) :=
    funext fun a => Fin.ext (by
      match a with
      | ⟨0, _⟩ => show p.val = 0 + 1 * p.val; omega
      | ⟨1, _⟩ => show q.val = 0 + 1 * q.val; omega)
  rw [e, View.canon_cons_emb]
  simp only [View.readAt_eq_ld, harg1.read_unread, harg2.read_unread, harg3.read_unread, harg4.read_unread, View.ld_unit_zero (S := S1024x512) hz, View.ld_unit_zero (S := S512x512) hz, View.ld_unit_zero (S := S1024x1) hz]

end Cert.Hmm.Pieces

end
-- ==== Proof.Final.lean ====
/-
  The kernel's three result arrays after the run, as whole-array functions of the arguments.

  The grid has 32 points; point `t` works on rows `1024·t … 1024·t + 1023`. Its blocks of previous weights, of
  emission likelihoods and of log-likelihoods are those rows of the argument arrays, and its block of the transition
  matrix is the whole matrix (the one model's `[1, 512, 512]` array reshaped to `[512, 512]`; the change of float
  format is the identity on the extended reals). So what point `t` writes back to each result is block `t` of the
  specification's whole-array result, and since the 32 blocks of 1024 rows cover the 32768 rows, each result array
  ends holding the specification's array.
-/
import proofs.«125899_j70145405878667_2_alg».proof.Proof.Gen.KernelIdeal.Value
import proofs.«125899_j70145405878667_2_alg».proof.Proof.Block
import proofs.«125899_j70145405878667_2_alg».proof.Proof.Pieces
import Idealize.ShloMosaic.Lib.Pipeline.Value
import Idealize.ShloMosaic.Lib.StableHlo.Run

set_option maxRecDepth 16384

noncomputable section

namespace Cert.Hmm.Final

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments -/

/-- The emission likelihoods, the previous weights, the log-likelihoods and the transition matrix at launch. -/
abbrev argE (c : Dev nD) : S32768x512.Idx → EReal := m ((c : Thread nD τ).loc main_arg0)
abbrev argS (c : Dev nD) : S32768x512.Idx → EReal := m ((c : Thread nD τ).loc main_arg1)
abbrev argL (c : Dev nD) : S32768x1.Idx → EReal := m ((c : Thread nD τ).loc main_arg2)
abbrev argA (c : Dev nD) : Fin 512 → Fin 512 → EReal := matOf (m ((c : Thread nD τ).loc main_arg3))

/-! ## Where a point's blocks sit -/

/-- Each row window's block index at point `t` is `(t, 0)`; the matrix window's is `(0, 0)` (decided over the 32 points). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := by have h : cfg0.N = 32 := N_0; have := t.isLt; omega

/-- The array row that row `p` of point `t`'s blocks is. -/
def rowAt (t : Fin cfg0.N) (p : Fin 1024) : Fin 32768 :=
  ⟨t.val * 1024 + p.val, by have := point_lt t; have := p.isLt; omega⟩

/-- Point `t`'s block of previous weights is rows `rowAt t` of the argument. -/
theorem blockS (c : Dev nD) (t : Fin cfg0.N) (p : Fin 1024) (k : Fin 512) :
    iblk m c 0 t (ix2 p k) = argS m c (ix2 (rowAt t p) k) := by
  obtain ⟨e0, e1, -⟩ := index_facts t
  show V m c main_arg1 (((cfg0.win 0).blk t).view.emb (ix2 p k)) = _
  rw [V_main_arg1]
  exact congrArg (m ((c : Thread nD τ).loc main_arg1)) (funext fun ax => Fin.ext (by
      match ax with
      | ⟨0, _⟩ => show win0_0.index t (0 : Fin 2) * 1024 + 1 * p.val = t.val * 1024 + p.val; omega
      | ⟨1, _⟩ => show win0_0.index t (1 : Fin 2) * 512 + 1 * k.val = k.val; omega))

/-- Point `t`'s block of emission likelihoods is rows `rowAt t` of the argument. -/
theorem blockE (c : Dev nD) (t : Fin cfg0.N) (p : Fin 1024) (k : Fin 512) :
    iblk m c 1 t (ix2 p k) = argE m c (ix2 (rowAt t p) k) := by
  obtain ⟨-, -, e0, e1, -⟩ := index_facts t
  show V m c main_arg0 (((cfg0.win 1).blk t).view.emb (ix2 p k)) = _
  rw [V_main_arg0]
  exact congrArg (m ((c : Thread nD τ).loc main_arg0)) (funext fun ax => Fin.ext (by
      match ax with
      | ⟨0, _⟩ => show win0_1.index t (0 : Fin 2) * 1024 + 1 * p.val = t.val * 1024 + p.val; omega
      | ⟨1, _⟩ => show win0_1.index t (1 : Fin 2) * 512 + 1 * k.val = k.val; omega))

/-- Point `t`'s block of log-likelihoods is rows `rowAt t` of the argument. -/
theorem blockL (c : Dev nD) (t : Fin cfg0.N) (p : Fin 1024) :
    iblk m c 2 t (ix2 p (0 : Fin 1)) = argL m c (ix2 (rowAt t p) (0 : Fin 1)) := by
  obtain ⟨-, -, -, -, e0, e1, -⟩ := index_facts t
  show V m c main_arg2 (((cfg0.win 2).blk t).view.emb (ix2 p (0 : Fin 1))) = _
  rw [V_main_arg2]
  exact congrArg (m ((c : Thread nD τ).loc main_arg2)) (funext fun ax => Fin.ext (by
      match ax with
      | ⟨0, _⟩ => show win0_2.index t (0 : Fin 2) * 1024 + 1 * p.val = t.val * 1024 + p.val; omega
      | ⟨1, _⟩ => show win0_2.index t (1 : Fin 2) * 1 + 1 * 0 = 0; omega))

/-- The matrix the region finds: the one model's transition matrix reshaped to `[512, 512]`. -/
theorem matrix_entry (c : Dev nD) :
    (V m c main_v1 : S512x512.Idx → EReal)
      = truncf .bf16 (shapeCast S512x512 (m ((c : Thread nD τ).loc main_arg3)) shapeCasts_S1x512x512_S512x512 : FVec Ideal S512x512 .f32) bitsLt_bf16_f32 := by
  dsimp only [Gen.V, Gen.hostOps0]
  after_results
  rfl

/-- Point `t`'s block of the matrix is the whole transition matrix. -/
theorem blockW (c : Dev nD) (t : Fin cfg0.N) (k q : Fin 512) :
    iblk m c 3 t (ix2 k q) = argA m c k q := by
  obtain ⟨-, -, -, -, -, -, e0, e1, -⟩ := index_facts t
  show V m c main_v1 (((cfg0.win 3).blk t).view.emb (ix2 k q)) = _
  rw [matrix_entry]
  show shapeCast S512x512 (m ((c : Thread nD τ).loc main_arg3)) shapeCasts_S1x512x512_S512x512 (((cfg0.win 3).blk t).view.emb (ix2 k q)) = _
  refine shapeCast_apply _ shapeCasts_S1x512x512_S512x512 _ (ix3 (0 : Fin 1) k q) ?_
  rw [Shape.rowMajor_val_three, Shape.rowMajor_val_two]
  show (0 * 512 + k.val) * 512 + q.val = (win0_3.index t (0 : Fin 2) * 512 + 1 * k.val) * 512 + (win0_3.index t (1 : Fin 2) * 512 + 1 * q.val)
  rw [e0, e1]; omega

/-! ## What each point writes back -/

/-- Point `t` writes back block `t` of the new weights. -/
theorem flushed5_eq (c : Dev nD) (t : Fin cfg0.N) :
    (dats m 0 c).flushed 5 t = ((cfg0.win 5).blk t).view.read (Elt Ideal) (newWeights (argE m c) (argS m c) (argA m c)) := by
  rw [flushed5_A, Pieces.weights_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t)]
  obtain ⟨-, -, -, -, -, -, -, -, -, -, e0, e1, -⟩ := index_facts t
  funext y
  obtain ⟨p, k, rfl⟩ : ∃ (p : Fin 1024) (k : Fin 512), y = ix2 p k := ⟨y 0, y 1, eq_ix2 y⟩
  show k0_pay4 (F := Ideal) (iblk m c 0 t) (iblk m c 3 t) (iblk m c 1 t) (ix2 p k)
      = newWeights (argE m c) (argS m c) (argA m c) (((cfg0.win 5).blk t).view.emb (ix2 p k))
  refine (Block.weights_block (iblk m c 0 t) (iblk m c 1 t) (iblk m c 3 t) (argS m c) (argE m c) (argA m c) (rowAt t)
    (blockS m c t) (blockE m c t) (blockW m c t) p k).trans ?_
  exact congrArg (newWeights (argE m c) (argS m c) (argA m c)) (funext fun ax => Fin.ext (by
      match ax with
      | ⟨0, _⟩ => show t.val * 1024 + p.val = win0_5.index t (0 : Fin 2) * 1024 + 1 * p.val; omega
      | ⟨1, _⟩ => show k.val = win0_5.index t (1 : Fin 2) * 512 + 1 * k.val; omega))

/-- Point `t` writes back block `t` of the new log-likelihoods. -/
theorem flushed6_eq (c : Dev nD) (t : Fin cfg0.N) :
    (dats m 0 c).flushed 6 t = ((cfg0.win 6).blk t).view.read (Elt Ideal) (newLoglik (argE m c) (argS m c) (argL m c) (argA m c)) := by
  rw [flushed6_A, Pieces.loglik_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t)]
  obtain ⟨-, -, -, -, -, -, -, -, -, -, -, -, e0, e1⟩ := index_facts t
  funext y
  obtain ⟨p, u, rfl⟩ : ∃ (p : Fin 1024) (u : Fin 1), y = ix2 p u := ⟨y 0, y 1, eq_ix2 y⟩
  show k0_pay3 (F := Ideal) (iblk m c 0 t) (iblk m c 3 t) (iblk m c 1 t) (iblk m c 2 t) (ix2 p u)
      = newLoglik (argE m c) (argS m c) (argL m c) (argA m c) (((cfg0.win 6).blk t).view.emb (ix2 p u))
  refine (Block.loglik_block (iblk m c 0 t) (iblk m c 1 t) (iblk m c 3 t) (iblk m c 2 t) (argS m c) (argE m c) (argL m c) (argA m c) (rowAt t)
    (blockS m c t) (blockE m c t) (blockL m c t) (blockW m c t) p u).trans ?_
  exact congrArg (newLoglik (argE m c) (argS m c) (argL m c) (argA m c)) (funext fun ax => Fin.ext (by
      match ax with
      | ⟨0, _⟩ => show t.val * 1024 + p.val = win0_6.index t (0 : Fin 2) * 1024 + 1 * p.val; omega
      | ⟨1, _⟩ => show u.val = win0_6.index t (1 : Fin 2) * 1 + 1 * u.val; omega))

/-- Point `t` writes back block `t` of the fused array: lanes below 512 from the first store, lane 512 from the second. -/
theorem flushed4_eq (c : Dev nD) (t : Fin cfg0.N) :
    (dats m 0 c).flushed 4 t = ((cfg0.win 4).blk t).view.read (Elt Ideal) (fused (argE m c) (argS m c) (argL m c) (argA m c)) := by
  rw [flushed4_A]
  obtain ⟨-, -, -, -, -, -, -, -, e0, e1, -⟩ := index_facts t
  funext y
  obtain ⟨p, j, rfl⟩ : ∃ (p : Fin 1024) (j : Fin 513), y = ix2 p j := ⟨y 0, y 1, eq_ix2 y⟩
  show out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (ix2 p j)
      = fused (argE m c) (argS m c) (argL m c) (argA m c) (((cfg0.win 4).blk t).view.emb (ix2 p j))
  by_cases hj : j.val < 512
  · obtain ⟨q, rfl⟩ : ∃ q : Fin 512, j = q.castSucc := ⟨⟨j.val, hj⟩, Fin.ext rfl⟩
    refine (Pieces.fused_lane (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) p q).trans ?_
    refine (Block.fused_lane_block (iblk m c 0 t) (iblk m c 1 t) (iblk m c 3 t) (argS m c) (argE m c) (argL m c) (argA m c) (rowAt t)
      (blockS m c t) (blockE m c t) (blockW m c t) p q).trans ?_
    exact congrArg (fused (argE m c) (argS m c) (argL m c) (argA m c)) (funext fun ax => Fin.ext (by
      match ax with
      | ⟨0, _⟩ => show t.val * 1024 + p.val = win0_4.index t (0 : Fin 2) * 1024 + 1 * p.val; omega
      | ⟨1, _⟩ => show q.val = win0_4.index t (1 : Fin 2) * 513 + 1 * q.val; omega))
  · obtain rfl : j = Fin.last 512 := Fin.ext (by have := j.isLt; show j.val = 512; omega)
    refine (Pieces.fused_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) p).trans ?_
    refine (Block.fused_last_block (iblk m c 0 t) (iblk m c 1 t) (iblk m c 3 t) (iblk m c 2 t) (argS m c) (argE m c) (argL m c) (argA m c) (rowAt t)
      (blockS m c t) (blockE m c t) (blockL m c t) (blockW m c t) p).trans ?_
    exact congrArg (fused (argE m c) (argS m c) (argL m c) (argA m c)) (funext fun ax => Fin.ext (by
      match ax with
      | ⟨0, _⟩ => show t.val * 1024 + p.val = win0_4.index t (0 : Fin 2) * 1024 + 1 * p.val; omega
      | ⟨1, _⟩ => show 512 = win0_4.index t (1 : Fin 2) * 513 + 1 * 512; omega))

/-! ## The blocks cover the arrays -/

theorem mem_blk4 (t : Fin cfg0.N) (i : S32768x513.Idx) :
    i ∈ ((cfg0.win 4).blk t).view.set ↔ ∀ a : Fin 2, win0_4.index t a * S1024x513.size a ≤ (i a).val ∧ (i a).val < win0_4.index t a * S1024x513.size a + S1024x513.size a := by
  show i ∈ ((View.whole main_v2_0).slice (win0_4.rect t)).set ↔ _
  rw [View.set_slice_whole, Rect.mem_set_unit]
  exact Iff.rfl

theorem mem_blk5 (t : Fin cfg0.N) (i : S32768x512.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v2_1).slice (win0_5.rect t)).set ↔ _
  rw [View.set_slice_whole, Rect.mem_set_unit]
  exact Iff.rfl

theorem mem_blk6 (t : Fin cfg0.N) (i : S32768x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v2_2).slice (win0_6.rect t)).set ↔ _
  rw [View.set_slice_whole, Rect.mem_set_unit]
  exact Iff.rfl

/-- Row `i 0` lies in the block of point `i 0 / 1024`. -/
theorem cover4 (i : S32768x513.Idx) : ∃ t : Fin cfg0.N, (cfg0.win 4).flush t = true ∧ i ∈ ((cfg0.win 4).blk t).view.set := by
  have hN : cfg0.N = 32 := N_0
  have hi0 : (i 0).val < 32768 := (i 0).isLt
  have hi1 : (i 1).val < 513 := (i 1).isLt
  obtain ⟨t, ht⟩ : ∃ t : Fin cfg0.N, t.val = (i 0).val / 1024 := ⟨⟨(i 0).val / 1024, by omega⟩, rfl⟩
  obtain ⟨-, -, -, -, -, -, -, -, e0, e1, -⟩ := index_facts t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 513 ≤ (i 1).val ∧ (i 1).val < win0_4.index t (1 : Fin 2) * 513 + 513; omega

/-- Row `i 0` lies in the block of point `i 0 / 1024`. -/
theorem cover5 (i : S32768x512.Idx) : ∃ t : Fin cfg0.N, (cfg0.win 5).flush t = true ∧ i ∈ ((cfg0.win 5).blk t).view.set := by
  have hN : cfg0.N = 32 := N_0
  have hi0 : (i 0).val < 32768 := (i 0).isLt
  have hi1 : (i 1).val < 512 := (i 1).isLt
  obtain ⟨t, ht⟩ : ∃ t : Fin cfg0.N, t.val = (i 0).val / 1024 := ⟨⟨(i 0).val / 1024, by omega⟩, rfl⟩
  obtain ⟨-, -, -, -, -, -, -, -, -, -, e0, e1, -⟩ := index_facts t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- Row `i 0` lies in the block of point `i 0 / 1024`. -/
theorem cover6 (i : S32768x1.Idx) : ∃ t : Fin cfg0.N, (cfg0.win 6).flush t = true ∧ i ∈ ((cfg0.win 6).blk t).view.set := by
  have hN : cfg0.N = 32 := N_0
  have hi0 : (i 0).val < 32768 := (i 0).isLt
  have hi1 : (i 1).val < 1 := (i 1).isLt
  obtain ⟨t, ht⟩ : ∃ t : Fin cfg0.N, t.val = (i 0).val / 1024 := ⟨⟨(i 0).val / 1024, by omega⟩, rfl⟩
  obtain ⟨-, -, -, -, -, -, -, -, -, -, -, -, e0, e1⟩ := index_facts t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-! ## The arrays after the run -/

theorem final4 (c : Dev nD) : (dats m 0 c).arrAt 4 cfg0.N = fused (argE m c) (argS m c) (argL m c) (argA m c) :=
  (dats m 0 c).arrAt_eq_of_cover 4 _ (fun t _ => flushed4_eq m c t) cover4

theorem final5 (c : Dev nD) : (dats m 0 c).arrAt 5 cfg0.N = newWeights (argE m c) (argS m c) (argA m c) :=
  (dats m 0 c).arrAt_eq_of_cover 5 _ (fun t _ => flushed5_eq m c t) cover5

theorem final6 (c : Dev nD) : (dats m 0 c).arrAt 6 cfg0.N = newLoglik (argE m c) (argS m c) (argL m c) (argA m c) :=
  (dats m 0 c).arrAt_eq_of_cover 6 _ (fun t _ => flushed6_eq m c t) cover6

/-- The kernel's run: every weakly fair execution ends with the three results at the specification's arrays of the
    arguments at launch, the arguments unchanged. -/
theorem run : θ_run defs (onTc (τ := τ) (main (F := Ideal))) ⟨m, fun _ => 0, ρ⟩ fun r => ∀ c : Dev nD,
      r.2.mem ((c : Thread nD τ).loc main_v2_0) = fused (argE m c) (argS m c) (argL m c) (argA m c)
      ∧ r.2.mem ((c : Thread nD τ).loc main_v2_1) = newWeights (argE m c) (argS m c) (argA m c)
      ∧ r.2.mem ((c : Thread nD τ).loc main_v2_2) = newLoglik (argE m c) (argS m c) (argL m c) (argA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c),
      (h c).2.2.1.trans (final6 m c), (h c).2.2.2⟩)
    (run_blocks m ρ)

end Cert.Hmm.Final

end
-- ==== Proof.Reference.lean ====
/-
  The reference's three results are the specification's arrays.

  The reference reshapes the arguments to `[1, 32768, 512]` and `[1, 32768, 1, 512]` (the one model and a unit
  axis are carried along), contracts the previous weights with the transition matrix, clamps, multiplies, sums the
  lanes from a zero initial value, divides, takes logarithms, reshapes back and joins the log weights with the
  log-likelihood column along the lanes. Read at an index, each reshape moves no element — entry `(0, r, 0, q)` is
  entry `(r, q)` — so row `r` of each result is the specification's row function of row `r` of the arguments.
-/
import proofs.«125899_j70145405878667_2_alg».proof.Proof.Gen.ReferenceIdeal.Read
import proofs.«125899_j70145405878667_2_alg».proof.Proof.Spec
import Idealize.ShloMosaic.Lib.Pipeline.Value
import Idealize.ShloMosaic.Lib.ValueIdx
import Idealize.ShloMosaic.PureOps.Ideal.Laws

noncomputable section

namespace Cert.Hmm.Ref

open Cert.ReferenceIdeal Cert.ReferenceIdeal.Gen Cert.ReferenceIdeal.Read
open Idealize.ShloMosaic Idealize.ShloMosaic.ValueIdx

variable (X0 X1 : (⟨S32768x512, .f32⟩ : BufTy).Contents (Elt Ideal)) (X2 : (⟨S32768x1, .f32⟩ : BufTy).Contents (Elt Ideal))
  (X3 : (⟨S1x512x512, .f32⟩ : BufTy).Contents (Elt Ideal))

/-! ## The reshapes move no element -/

theorem idx3_of_ix4 (r : Fin 32768) (q : Fin 512) :
    idx_main_v3 (ix4 (0 : Fin 1) r (0 : Fin 1) q) = ix3 (0 : Fin 1) r q := funext fun a => Fin.ext (by
  match a with
  | ⟨0, _⟩ => rfl
  | ⟨1, _⟩ => show ((((0 : ℕ) * 32768 + r.val) * 1 + 0) * 512 + q.val) / 512 % 32768 = r.val; have := r.isLt; have := q.isLt; omega
  | ⟨2, _⟩ => show ((((0 : ℕ) * 32768 + r.val) * 1 + 0) * 512 + q.val) % 512 = q.val; have := q.isLt; omega)

theorem idx4_of_ix4 (r : Fin 32768) (q : Fin 512) :
    idx_main_v4 (ix4 (0 : Fin 1) r (0 : Fin 1) q) = ix3 (0 : Fin 1) r q := idx3_of_ix4 r q

theorem idx2_of_ix3 (r : Fin 32768) (q : Fin 512) :
    idx_main_v2 (ix3 (0 : Fin 1) r q) = ix2 r q := funext fun a => Fin.ext (by
  match a with
  | ⟨0, _⟩ => show ((((0 : ℕ) * 32768 + r.val) * 512 + q.val) / 512) = r.val; have := q.isLt; omega
  | ⟨1, _⟩ => show ((((0 : ℕ) * 32768 + r.val) * 512 + q.val) % 512) = q.val; have := q.isLt; omega)

theorem idx0_of_ix3 (r : Fin 32768) (q : Fin 512) :
    idx_main_v0 (ix3 (0 : Fin 1) r q) = ix2 r q := idx2_of_ix3 r q

theorem idx17_of_ix2 (r : Fin 32768) (q : Fin 512) :
    idx_main_v17 (ix2 r q) = ix4 (0 : Fin 1) r (0 : Fin 1) q := funext fun a => Fin.ext (by
  match a with
  | ⟨0, _⟩ => rfl
  | ⟨1, _⟩ => show (r.val * 512 + q.val) / 512 % 32768 = r.val; have := r.isLt; have := q.isLt; omega
  | ⟨2, _⟩ => rfl
  | ⟨3, _⟩ => show (r.val * 512 + q.val) % 512 = q.val; have := q.isLt; omega)

theorem idx18_of_ix2 (r : Fin 32768) (u : Fin 1) :
    idx_main_v18 (ix2 r u) = ix4 (0 : Fin 1) r (0 : Fin 1) (0 : Fin 1) := funext fun a => Fin.ext (by
  match a with
  | ⟨0, _⟩ => rfl
  | ⟨1, _⟩ => show (r.val * 1 + u.val) / 1 % 32768 = r.val; have := r.isLt; have := u.isLt; omega
  | ⟨2, _⟩ => rfl
  | ⟨3, _⟩ => rfl)

theorem idx5_of_ix4 (r : Fin 32768) :
    idx_main_v5 (ix4 (0 : Fin 1) r (0 : Fin 1) (0 : Fin 1)) = ix2 r (0 : Fin 1) := funext fun a => Fin.ext (by
  match a with
  | ⟨0, _⟩ => show ((((0 : ℕ) * 32768 + r.val) * 1 + 0) * 1 + 0) / 1 = r.val; omega
  | ⟨1, _⟩ => rfl)

/-! ## The stages, row by row -/

/-- The contraction with the transition matrix is the row's prediction. -/
theorem predict_apply (r : Fin 32768) (q : Fin 512) :
    val_main_v1 (F := Ideal) X1 X3 (ix3 (0 : Fin 1) r q) = predict (rowOf X1 r) (matOf X3) q := by
  rw [val_main_v1_apply]
  refine Finset.sum_congr rfl fun k _ => ?_
  rw [val_main_v0_apply]
  have el : idx_main_v0 (lidx_main_v1 (ix3 (0 : Fin 1) r q) k) = ix2 r k := idx0_of_ix3 r k
  have er : ridx_main_v1 (ix3 (0 : Fin 1) r q) k = ix3 (0 : Fin 1) k q := funext fun a => Fin.ext (by
    match a with
    | ⟨0, _⟩ => rfl
    | ⟨1, _⟩ => rfl
    | ⟨2, _⟩ => rfl)
  rw [el, er]

/-- The product of the clamped factors is the row's unnormalised weight. -/
theorem weight_apply (r : Fin 32768) (q : Fin 512) :
    val_main_v10 (F := Ideal) X0 X1 X3 (ix4 (0 : Fin 1) r (0 : Fin 1) q) = weight (rowOf X0 r) (rowOf X1 r) (matOf X3) q := by
  rw [val_main_v10_apply, val_main_v7_apply, val_main_v9_apply, val_main_v4_apply, val_main_v2_apply, val_main_v3_apply,
    idx4_of_ix4, idx3_of_ix4, idx2_of_ix3, predict_apply]
  rfl

/-- The lane sum from the zero initial value is the row's total. -/
theorem total_apply (r : Fin 32768) :
    val_main_v12 (F := Ideal) X0 X1 X3 (ix4 (0 : Fin 1) r (0 : Fin 1) (0 : Fin 1)) = total (rowOf X0 r) (rowOf X1 r) (matOf X3) := by
  rw [val_main_v12_apply, val_main_v11_apply]
  show Ideal.ofBits .f32 0x00000000#32 + _ = _
  rw [Ideal.ofBits_zero_f32, zero_add]
  refine Finset.sum_congr rfl fun k _ => ?_
  have e : idx_main_v11 (idx_main_v12 (ix4 (0 : Fin 1) r (0 : Fin 1) (0 : Fin 1))) k = ix4 (0 : Fin 1) r (0 : Fin 1) k :=
    funext fun a => Fin.ext (by
      match a with
      | ⟨0, _⟩ => rfl
      | ⟨1, _⟩ => rfl
      | ⟨2, _⟩ => rfl
      | ⟨3, _⟩ => rfl)
  rw [e, weight_apply]

/-- The new weights. -/
theorem newWeights_eq : val_main_v17 (F := Ideal) X0 X1 X3 = newWeights X0 X1 (matOf X3) := by
  funext i
  obtain ⟨r, q, rfl⟩ : ∃ (r : Fin 32768) (q : Fin 512), i = ix2 r q := ⟨i 0, i 1, eq_ix2 i⟩
  rw [val_main_v17_apply, val_main_v16_apply, val_main_v15_apply, idx17_of_ix2, weight_apply]
  have e : idx_main_v15 (ix4 (0 : Fin 1) r (0 : Fin 1) q) = ix4 (0 : Fin 1) r (0 : Fin 1) (0 : Fin 1) := funext fun a => Fin.ext (by
    match a with
    | ⟨0, _⟩ => rfl
    | ⟨1, _⟩ => rfl
    | ⟨2, _⟩ => rfl
    | ⟨3, _⟩ => rfl)
  rw [e, total_apply]
  rfl

/-- The new log-likelihoods. -/
theorem newLoglik_eq : val_main_v18 (F := Ideal) X0 X1 X2 X3 = newLoglik X0 X1 X2 (matOf X3) := by
  funext i
  obtain ⟨r, u, rfl⟩ : ∃ (r : Fin 32768) (u : Fin 1), i = ix2 r u := ⟨i 0, i 1, eq_ix2 i⟩
  rw [val_main_v18_apply, val_main_v14_apply, val_main_v13_apply, val_main_v5_apply, idx18_of_ix2, idx5_of_ix4, total_apply]
  rfl

/-- The fused array: the first piece of the join in lanes below 512, the second in lane 512. -/
theorem fused_eq : val_main_v20 (F := Ideal) X0 X1 X2 X3 = fused X0 X1 X2 (matOf X3) := by
  funext i
  obtain ⟨r, j, rfl⟩ : ∃ (r : Fin 32768) (j : Fin 513), i = ix2 r j := ⟨i 0, i 1, eq_ix2 i⟩
  unfold val_main_v20
  by_cases hj : j.val < 512
  · refine (concatenate_pair_apply_left (t := S32768x513) (s₁ := S32768x512) (s₂ := S32768x1) (1 : Fin 2)
      (val_main_v19 (F := Ideal) X0 X1 X3) (val_main_v18 (F := Ideal) X0 X1 X2 X3)
      concatenates_S32768x512_S32768x1_S32768x513_d1 (ix2 r j) rfl
      (ix2 r (⟨j.val, hj⟩ : Fin 512)) (fun b => by
        match b with
        | ⟨0, _⟩ => rfl
        | ⟨1, _⟩ => rfl)).trans ?_
    rw [val_main_v19_apply, newWeights_eq]
    exact (fusedRow_lt _ _ _ _ j hj).symm
  · have hj' : j.val = 512 := by have := j.isLt; omega
    refine (concatenate_pair_apply_right (t := S32768x513) (s₁ := S32768x512) (s₂ := S32768x1) (1 : Fin 2)
      (val_main_v19 (F := Ideal) X0 X1 X3) (val_main_v18 (F := Ideal) X0 X1 X2 X3)
      concatenates_S32768x512_S32768x1_S32768x513_d1 (ix2 r j) rfl rfl
      (ix2 r (0 : Fin 1)) (fun b hb => by
        match b with
        | ⟨0, _⟩ => rfl
        | ⟨1, _⟩ => exact absurd rfl hb) (by show 0 + 512 = j.val; omega)).trans ?_
    rw [newLoglik_eq]
    exact (fusedRow_last _ _ _ _ j hj).symm

end Cert.Hmm.Ref

end
-- ==== Proof.lean ====
/-
  One step of the scaled forward recursion of a hidden Markov model (512 states, 32768 rows): a kernel that works on
  blocks of 1024 rows against a whole-array reference.

  Over the extended reals both programs compute, for every row with previous weights `s`, emission likelihoods `e`
  and log-likelihood `l`, and the transition matrix `A`,

      weight q = max (e q) floor · max (Σ_k s k · A k q) floor,   total = Σ_q weight q,
      new weight q = weight q / total,   new log-likelihood = l + log total,

  and a fused array holding `log (new weight q)` in lanes 0 … 511 and the new log-likelihood in lane 512. The floor is
  the same binary32 word in both programs, a change of float format is the identity, a matrix product into a zero
  accumulator and a contraction are the same sum, and a lane sum from a zero initial value is the plain sum; no
  distributive law is used, so the finiteness of the inputs is never opened. Each row's results depend on that row of
  the inputs only, so the kernel's 32 blocks of 1024 rows — which cover the 32768 rows — assemble to the reference's
  whole arrays.

  The idealization rewrote no operation, so `preserves` is trivial. The three frames are the generated frame runs
  (the reference's is its generated run with the results dropped).
-/
import proofs.«125899_j70145405878667_2_alg».proof.Defs
import proofs.«125899_j70145405878667_2_alg».proof.Proof.Gen.Kernel
import proofs.«125899_j70145405878667_2_alg».proof.Proof.Gen.Kernel.Skeleton
import proofs.«125899_j70145405878667_2_alg».proof.Proof.Gen.Kernel.Launch
import proofs.«125899_j70145405878667_2_alg».proof.Proof.Gen.Kernel.Points
import proofs.«125899_j70145405878667_2_alg».proof.Proof.Gen.Kernel.Frame
import proofs.«125899_j70145405878667_2_alg».proof.Proof.Gen.KernelIdeal
import proofs.«125899_j70145405878667_2_alg».proof.Proof.Gen.KernelIdeal.Skeleton
import proofs.«125899_j70145405878667_2_alg».proof.Proof.Gen.KernelIdeal.Launch
import proofs.«125899_j70145405878667_2_alg».proof.Proof.Gen.KernelIdeal.Points
import proofs.«125899_j70145405878667_2_alg».proof.Proof.Gen.KernelIdeal.Frame
import proofs.«125899_j70145405878667_2_alg».proof.Proof.Gen.ReferenceIdeal
import proofs.«125899_j70145405878667_2_alg».proof.Proof.Gen.KernelIdeal.Value
import proofs.«125899_j70145405878667_2_alg».proof.Proof.Gen.ReferenceIdeal.Run
import proofs.«125899_j70145405878667_2_alg».proof.Proof.Gen.ReferenceIdeal.Read
import proofs.«125899_j70145405878667_2_alg».proof.Proof.Gen.Pre_finite_inputs
import proofs.«125899_j70145405878667_2_alg».proof.Proof.Final
import proofs.«125899_j70145405878667_2_alg».proof.Proof.Reference
import Idealize.ShloMosaic.Adequacy
import Idealize.ShloMosaic.Init

noncomputable section

namespace Cert.Proof

open Idealize.ShloMosaic Idealize.SL.Sem Cert.Hmm

/-- The word-level kernel terminates without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- No operation was rewritten. -/
theorem preserves : Cert.preserves_Kernel_KernelIdeal := trivial

/-- From memories that agree on the arguments, both programs end with the specification's three arrays of those
    arguments: the kernel block by block, the reference stage by stage. -/
theorem algebraic : Cert.algebraic_KernelIdeal_ReferenceIdeal := by
  intro m ρ m' ρ' _ hagree
  refine ⟨fun c => fused (Final.argE m c) (Final.argS m c) (Final.argL m c) (Final.argA m c),
    fun c => newWeights (Final.argE m c) (Final.argS m c) (Final.argA m c),
    fun c => newLoglik (Final.argE m c) (Final.argS m c) (Final.argL m c) (Final.argA m c),
    Final.run m ρ, ?_⟩
  refine (θ_run Cert.ReferenceIdeal.defs _ _).mono (fun _ h c => ?_) (Cert.ReferenceIdeal.Value.run (F := Ideal) m' ρ')
  obtain ⟨h20, h17, h18, hkept⟩ := h c
  obtain ⟨a0, a1, a2, a3⟩ := hagree c
  refine ⟨?_, ?_, ?_, hkept⟩
  · rw [h20, Cert.ReferenceIdeal.Read.val_main_v20_eq, Ref.fused_eq, a0, a1, a2, a3]
  · rw [h17, Cert.ReferenceIdeal.Read.val_main_v17_eq, Ref.newWeights_eq, a0, a1, a3]
  · rw [h18, Cert.ReferenceIdeal.Read.val_main_v18_eq, Ref.newLoglik_eq, a0, a1, a2, a3]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
